-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3200000x64 : Shape := ⟨2, ![3200000, 64]⟩
abbrev S3200000 : Shape := ⟨1, ![3200000]⟩
abbrev S_ : Shape := ⟨0, ![]⟩

class Facts : Prop where
  bcast_S_S3200000x64 : S_.BroadcastsInDim S3200000x64 (![] : Fin 0 → Fin S3200000x64.rank)
  reducesTo_S3200000x64_S_d0_1 : S3200000x64.ReducesTo [0, 1] S_
  h_S_ : 0 < S_.numel

variable [Facts]

def fn {F : FTy → Type} [FloatOps F] (main_arg0 : FVec F S3200000x64 .f32) (main_arg1 : FVec F S3200000x64 .f32) (main_arg2 : IVec S3200000 32) (main_arg3 : IVec S3200000 32) : IVec S_ 1 :=
  let main_v0 : FVec F S3200000x64 .f32 := Host.absf main_arg0
  let main_cst : FVec F S_ .f32 := constant S_ .f32 0x7F800000#32
  let main_v1 : FVec F S3200000x64 .f32 := broadcastInDim S3200000x64 ![] bcast_S_S3200000x64 main_cst
  let main_v2 : IVec S3200000x64 1 := cmpf .olt main_v0 main_v1
  let main_c : IVec S_ 1 := constantI S_ 1 1#1
  let main_v3 : IVec S_ 1 := (fun x v => Host.reduce IntOp.andi x v reducesTo_S3200000x64_S_d0_1 h_S_) main_v2 main_c
  let main_v4 : FVec F S3200000x64 .f32 := Host.absf main_arg1
  let main_cst_0 : FVec F S_ .f32 := constant S_ .f32 0x7F800000#32
  let main_v5 : FVec F S3200000x64 .f32 := broadcastInDim S3200000x64 ![] bcast_S_S3200000x64 main_cst_0
  let main_v6 : IVec S3200000x64 1 := cmpf .olt main_v4 main_v5
  let main_c_1 : IVec S_ 1 := constantI S_ 1 1#1
  let main_v7 : IVec S_ 1 := (fun x v => Host.reduce IntOp.andi x v reducesTo_S3200000x64_S_d0_1 h_S_) main_v6 main_c_1
  let main_v8 : IVec S_ 1 := andi main_v3 main_v7
  main_v8
-- ==== Kernel.lean ====
abbrev S3200000x64 : Shape := ⟨2, ![3200000, 64]⟩
abbrev S3200000 : Shape := ⟨1, ![3200000]⟩
abbrev S8192x64 : Shape := ⟨2, ![8192, 64]⟩
abbrev S8192 : Shape := ⟨1, ![8192]⟩
abbrev S8192x1 : Shape := ⟨2, ![8192, 1]⟩
abbrev S_ : Shape := ⟨0, ![]⟩
abbrev S100000 : Shape := ⟨1, ![100000]⟩
abbrev S3200000x1 : Shape := ⟨2, ![3200000, 1]⟩
abbrev S1x3200000 : Shape := ⟨2, ![1, 3200000]⟩
abbrev S2x3200000 : Shape := ⟨2, ![2, 3200000]⟩

abbrev nBuf : Space → Nat
  | .hbm => 32
  | .vmem => 6
  | .smem => 0
  | _ => 0

abbrev bufTy : (tb : Table) → Fin (tcTables nBuf tb) → BufTy
  | .hbm, ⟨0, _⟩ => ⟨S3200000x64, .f32⟩
  | .hbm, ⟨1, _⟩ => ⟨S3200000x64, .f32⟩
  | .hbm, ⟨2, _⟩ => ⟨S3200000, .i32⟩
  | .hbm, ⟨3, _⟩ => ⟨S3200000, .i32⟩
  | .hbm, ⟨4, _⟩ => ⟨S3200000, .f32⟩
  | .hbm, ⟨5, _⟩ => ⟨S_, .f32⟩
  | .hbm, ⟨6, _⟩ => ⟨S100000, .f32⟩
  | .hbm, ⟨7, _⟩ => ⟨S3200000x1, .i32⟩
  | .hbm, ⟨8, _⟩ => ⟨S100000, .f32⟩
  | .hbm, ⟨9, _⟩ => ⟨S_, .f32⟩
  | .hbm, ⟨10, _⟩ => ⟨S100000, .f32⟩
  | .hbm, ⟨11, _⟩ => ⟨S100000, .i1⟩
  | .hbm, ⟨12, _⟩ => ⟨S_, .f32⟩
  | .hbm, ⟨13, _⟩ => ⟨S100000, .f32⟩
  | .hbm, ⟨14, _⟩ => ⟨S100000, .f32⟩
  | .hbm, ⟨15, _⟩ => ⟨S_, .f32⟩
  | .hbm, ⟨16, _⟩ => ⟨S_, .f32⟩
  | .hbm, ⟨17, _⟩ => ⟨S100000, .f32⟩
  | .hbm, ⟨18, _⟩ => ⟨S100000, .f32⟩
  | .hbm, ⟨19, _⟩ => ⟨S1x3200000, .i32⟩
  | .hbm, ⟨20, _⟩ => ⟨S1x3200000, .i32⟩
  | .hbm, ⟨21, _⟩ => ⟨S2x3200000, .i32⟩
  | .hbm, ⟨22, _⟩ => ⟨S_, .i32⟩
  | .hbm, ⟨23, _⟩ => ⟨S3200000, .i32⟩
  | .hbm, ⟨24, _⟩ => ⟨S3200000, .i1⟩
  | .hbm, ⟨25, _⟩ => ⟨S_, .i32⟩
  | .hbm, ⟨26, _⟩ => ⟨S3200000, .i32⟩
  | .hbm, ⟨27, _⟩ => ⟨S3200000, .i32⟩
  | .hbm, ⟨28, _⟩ => ⟨S3200000, .i32⟩
  | .hbm, ⟨29, _⟩ => ⟨S3200000x1, .i32⟩
  | .hbm, ⟨30, _⟩ => ⟨S3200000, .f32⟩
  | .hbm, ⟨31, _⟩ => ⟨S3200000, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S8192, .f32⟩
  | .local _ .vmem, ⟨5, _⟩ => ⟨S8192, .f32⟩
  | _, _ => ⟨S3200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_call0_v0 : Ref sig .tc := ⟨.hbm, 16, rfl⟩
abbrev main_call0_v1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![391], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S8192x64_S8192x64_0_0 : ∀ a, (![0, 0] : Fin 2 → Nat) a + S8192x64.size a ≤ S8192x64.size a
  h_S8192x64 : 0 < S8192x64.numel
  reduces_S8192x64_S8192 : S8192x64.Reduces [1] S8192
  shapeCasts_S8192_S8192x1 : S8192.ShapeCasts S8192x1
  broadcasts_S8192x1_S8192x64 : S8192x1.Broadcasts S8192x64
  inb_S8192_S8192_0 : ∀ a, (![0] : Fin 1 → Nat) a + S8192.size a ≤ S8192.size a
  h_S8192 : 0 < S8192.numel
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000_S1x3200000_1 : S3200000.BroadcastsInDim S1x3200000 (![1] : Fin 1 → Fin S1x3200000.rank)
  concatenates_S1x3200000_S1x3200000_S2x3200000_d0 : Shape.Concatenates [S1x3200000, S1x3200000] S2x3200000 0
  bcast_S_S3200000 : S_.BroadcastsInDim S3200000 (![] : Fin 0 → Fin S3200000.rank)
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S8192x64.size a < S3200000x64.size a
  hwx0_0 : ∀ i : grid0.Coords, EltTy.bits .f32 = 32 ∨ (Rect.unit (s := S3200000x64) (fun a => cc0_transform_0 i a * S8192x64.size a) (fun a => (Pipeline.Clip.of (cc0_transform_0 i a) (S8192x64.size a) (S3200000x64.size a)).extent (S8192x64.size a)) fun a => Pipeline.Clip.inb (Pipeline.Clip.ok_of (hstart0_0 i a))).WholeWords (EltTy.packing .f32)
  hwxs0_0 : ∀ i : grid0.Coords, EltTy.bits .f32 = 32 ∨ (Rect.unit (s := S8192x64) (fun _ => 0) (fun a => (Pipeline.Clip.of (cc0_transform_0 i a) (S8192x64.size a) (S3200000x64.size a)).extent (S8192x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S8192x64.size a < S3200000x64.size a
  hwx0_1 : ∀ i : grid0.Coords, EltTy.bits .f32 = 32 ∨ (Rect.unit (s := S3200000x64) (fun a => cc0_transform_1 i a * S8192x64.size a) (fun a => (Pipeline.Clip.of (cc0_transform_1 i a) (S8192x64.size a) (S3200000x64.size a)).extent (S8192x64.size a)) fun a => Pipeline.Clip.inb (Pipeline.Clip.ok_of (hstart0_1 i a))).WholeWords (EltTy.packing .f32)
  hwxs0_1 : ∀ i : grid0.Coords, EltTy.bits .f32 = 32 ∨ (Rect.unit (s := S8192x64) (fun _ => 0) (fun a => (Pipeline.Clip.of (cc0_transform_1 i a) (S8192x64.size a) (S3200000x64.size a)).extent (S8192x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S8192.size a < S3200000.size a
  hwx0_2 : ∀ i : grid0.Coords, EltTy.bits .f32 = 32 ∨ (Rect.unit (s := S3200000) (fun a => cc0_transform_2 i a * S8192.size a) (fun a => (Pipeline.Clip.of (cc0_transform_2 i a) (S8192.size a) (S3200000.size a)).extent (S8192.size a)) fun a => Pipeline.Clip.inb (Pipeline.Clip.ok_of (hstart0_2 i a))).WholeWords (EltTy.packing .f32)
  hwxs0_2 : ∀ i : grid0.Coords, EltTy.bits .f32 = 32 ∨ (Rect.unit (s := S8192) (fun _ => 0) (fun a => (Pipeline.Clip.of (cc0_transform_2 i a) (S8192.size a) (S3200000.size a)).extent (S8192.size a)) fun a => (Nat.zero_add _).trans_le (Pipeline.Clip.extent_le (Pipeline.Clip.ok_of (hstart0_2 i a)))).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

abbrev win0_0 : Pipeline.Window sig grid0 :=
  Pipeline.Window.ofSpecClip (Memref.whole main_arg0) S8192x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S8192x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S8192.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S3200000x64 : Shape := ⟨2, ![3200000, 64]⟩
abbrev S3200000 : Shape := ⟨1, ![3200000]⟩
abbrev S_ : Shape := ⟨0, ![]⟩
abbrev S3200000x1 : Shape := ⟨2, ![3200000, 1]⟩
abbrev S100000 : Shape := ⟨1, ![100000]⟩
abbrev S1x3200000 : Shape := ⟨2, ![1, 3200000]⟩
abbrev S2x3200000 : Shape := ⟨2, ![2, 3200000]⟩

abbrev nBuf : Space → Nat
  | .hbm => 60
  | .vmem => 0
  | .smem => 0
  | _ => 0

abbrev bufTy : (tb : Table) → Fin (tcTables nBuf tb) → BufTy
  | .hbm, ⟨0, _⟩ => ⟨S3200000x64, .f32⟩
  | .hbm, ⟨1, _⟩ => ⟨S3200000x64, .f32⟩
  | .hbm, ⟨2, _⟩ => ⟨S3200000, .i32⟩
  | .hbm, ⟨3, _⟩ => ⟨S3200000, .i32⟩
  | .hbm, ⟨4, _⟩ => ⟨S3200000x64, .f32⟩
  | .hbm, ⟨5, _⟩ => ⟨S_, .f32⟩
  | .hbm, ⟨6, _⟩ => ⟨S3200000, .f32⟩
  | .hbm, ⟨7, _⟩ => ⟨S3200000x1, .f32⟩
  | .hbm, ⟨8, _⟩ => ⟨S3200000x1, .f32⟩
  | .hbm, ⟨9, _⟩ => ⟨S_, .f32⟩
  | .hbm, ⟨10, _⟩ => ⟨S3200000x1, .f32⟩
  | .hbm, ⟨11, _⟩ => ⟨S3200000x1, .f32⟩
  | .hbm, ⟨12, _⟩ => ⟨S3200000x64, .f32⟩
  | .hbm, ⟨13, _⟩ => ⟨S3200000x64, .f32⟩
  | .hbm, ⟨14, _⟩ => ⟨S3200000x64, .f32⟩
  | .hbm, ⟨15, _⟩ => ⟨S_, .f32⟩
  | .hbm, ⟨16, _⟩ => ⟨S3200000, .f32⟩
  | .hbm, ⟨17, _⟩ => ⟨S3200000x1, .f32⟩
  | .hbm, ⟨18, _⟩ => ⟨S3200000x1, .f32⟩
  | .hbm, ⟨19, _⟩ => ⟨S_, .f32⟩
  | .hbm, ⟨20, _⟩ => ⟨S3200000x1, .f32⟩
  | .hbm, ⟨21, _⟩ => ⟨S3200000x1, .f32⟩
  | .hbm, ⟨22, _⟩ => ⟨S3200000x64, .f32⟩
  | .hbm, ⟨23, _⟩ => ⟨S3200000x64, .f32⟩
  | .hbm, ⟨24, _⟩ => ⟨S3200000x64, .f32⟩
  | .hbm, ⟨25, _⟩ => ⟨S_, .f32⟩
  | .hbm, ⟨26, _⟩ => ⟨S3200000, .f32⟩
  | .hbm, ⟨27, _⟩ => ⟨S_, .f32⟩
  | .hbm, ⟨28, _⟩ => ⟨S3200000, .f32⟩
  | .hbm, ⟨29, _⟩ => ⟨S3200000, .f32⟩
  | .hbm, ⟨30, _⟩ => ⟨S_, .f32⟩
  | .hbm, ⟨31, _⟩ => ⟨S3200000, .f32⟩
  | .hbm, ⟨32, _⟩ => ⟨S3200000, .f32⟩
  | .hbm, ⟨33, _⟩ => ⟨S_, .f32⟩
  | .hbm, ⟨34, _⟩ => ⟨S100000, .f32⟩
  | .hbm, ⟨35, _⟩ => ⟨S3200000x1, .i32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .i1⟩
  | .hbm, ⟨40, _⟩ => ⟨S_, .f32⟩
  | .hbm, ⟨41, _⟩ => ⟨S100000, .f32⟩
  | .hbm, ⟨42, _⟩ => ⟨S100000, .f32⟩
  | .hbm, ⟨43, _⟩ => ⟨S_, .f32⟩
  | .hbm, ⟨44, _⟩ => ⟨S_, .f32⟩
  | .hbm, ⟨45, _⟩ => ⟨S100000, .f32⟩
  | .hbm, ⟨46, _⟩ => ⟨S100000, .f32⟩
  | .hbm, ⟨47, _⟩ => ⟨S1x3200000, .i32⟩
  | .hbm, ⟨48, _⟩ => ⟨S1x3200000, .i32⟩
  | .hbm, ⟨49, _⟩ => ⟨S2x3200000, .i32⟩
  | .hbm, ⟨50, _⟩ => ⟨S_, .i32⟩
  | .hbm, ⟨51, _⟩ => ⟨S3200000, .i32⟩
  | .hbm, ⟨52, _⟩ => ⟨S3200000, .i1⟩
  | .hbm, ⟨53, _⟩ => ⟨S_, .i32⟩
  | .hbm, ⟨54, _⟩ => ⟨S3200000, .i32⟩
  | .hbm, ⟨55, _⟩ => ⟨S3200000, .i32⟩
  | .hbm, ⟨56, _⟩ => ⟨S3200000, .i32⟩
  | .hbm, ⟨57, _⟩ => ⟨S3200000x1, .i32⟩
  | .hbm, ⟨58, _⟩ => ⟨S3200000, .f32⟩
  | .hbm, ⟨59, _⟩ => ⟨S3200000, .f32⟩
  | _, _ => ⟨S3200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_v25 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_call0_v0 : Ref sig .tc := ⟨.hbm, 44, rfl⟩
abbrev main_call0_v1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c : Ref sig .tc := ⟨.hbm, 50, rfl⟩
abbrev main_v33 : Ref sig .tc := ⟨.hbm, 51, rfl⟩
abbrev main_v34 : Ref sig .tc := ⟨.hbm, 52, rfl⟩
abbrev main_c_10 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  reducesTo_S3200000x64_S3200000_d1 : S3200000x64.ReducesTo [1] S3200000
  h_S_ : 0 < S_.numel
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S3200000x1_S3200000x64_0_1 : S3200000x1.BroadcastsInDim S3200000x64 (![0, 1] : Fin 2 → Fin S3200000x64.rank)
  bcast_S_S3200000 : S_.BroadcastsInDim S3200000 (![] : Fin 0 → Fin S3200000.rank)
  bcast_S_S100000 : S_.BroadcastsInDim S100000 (![] : Fin 0 → Fin S100000.rank)
  bcast_S3200000_S1x3200000_1 : S3200000.BroadcastsInDim S1x3200000 (![1] : Fin 1 → Fin S1x3200000.rank)
  concatenates_S1x3200000_S1x3200000_S2x3200000_d0 : Shape.Concatenates [S1x3200000, S1x3200000] S2x3200000 0
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf

class Facts : Prop extends Facts₀ where

variable [Facts]
-- ==== Proof.BodyBits.lean ====
/-
  The kernel body of the program as printed, run once on whole staging buffers.

  The body loads the two 8192×64 input blocks whole, computes one number per row — the cosine of the two rows,
  shifted and halved: ((Σ_k h_k/max(‖h‖,ε) · t_k/max(‖t‖,ε)) + 1)/2 — and stores the 8192 numbers over the whole
  output block.  So after the body the output buffer reads as the row function of what the two input buffers read,
  whatever it held before, and the input buffers are as they were.  Stated for every float instance.
-/
import proofs.«178564_j66675072303610_1_alg».proof.Proof.Gen.Kernel.Frame
import proofs.«178564_j66675072303610_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 8192×64 block, as the rectangle both loads go through. -/
abbrev rowsRect : Rect S8192x64 := Rect.unit (s := S8192x64) ![0, 0] S8192x64.size inb_S8192x64_S8192x64_0_0
/-- The whole block of 8192 results, as the rectangle the store goes through. -/
abbrev outRect : Rect S8192 := Rect.unit (s := S8192) ![0] S8192.size inb_S8192_S8192_0

/-- What the output buffer reads after the body, from what the two input buffers read: the one store's payload laid
    over the whole block. -/
def stored (x0 x1 : Vec F S8192x64 .f32) : Vec F S8192 .f32 :=
  View.canon [⟨outRect, k0_pay1 (View.ld x0 rowsRect) (View.ld x1 rowsRect)⟩]

/-- The one store covers the output block. -/
theorem store_covers (p0 : Vec F S8192 .f32) (y : S8192.Idx) :
    ∃ pc ∈ ([⟨outRect, p0⟩] : List (View.Piece (Elt F) S8192 .f32)), y ∈ pc.1.set :=
  View.cover_of_tiled [⟨outRect, p0⟩] S8192.size (by rfl) y

set_option maxHeartbeats 1000000 in
/-- The body on whole memrefs: inputs reading `x0`, `x1`, the output anything; it returns with the inputs as they were
    and the output reading `stored x0 x1`. -/
theorem sound_kernel (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S8192 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__edge_alpha_kernel i arg1 harg1 arg2 harg2 arg3 harg3) K := by
  simp only [cc0__edge_alpha_kernel_eq_skeleton]; unfold cc0__edge_alpha_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-- Both rectangles start at the origin. -/
theorem origin2 : (![0, 0] : Fin 2 → Nat) = fun _ => 0 := funext fun a => by fin_cases a <;> rfl
theorem origin1 : (![0] : Fin 1 → Nat) = fun _ => 0 := funext fun a => by fin_cases a; rfl

/-- Since every access is of a whole block, what is stored is the payload of the two blocks themselves. -/
theorem stored_eq (x0 x1 : Vec F S8192x64 .f32) : stored x0 x1 = k0_pay1 x0 x1 := by
  unfold stored
  rw [View.canon_unit_zero origin1]
  simp only [View.ld_unit_zero (S := S8192x64) origin2]

end Cert.Kernel.Body

end
-- ==== Proof.RunBits.lean ====
/-
  The frame of the program as printed, at bit patterns.

  At bit patterns a float sum along a row is an uninterpreted function of the whole block, so what the body stores for
  a row inside the array may depend on the words past the array's end that the last point's cut fetches leave unnamed:
  the result's contents cannot be named.  The frame does not need them.  The proof data here are relational and say
  nothing of what the body leaves in any staging buffer: the inputs are fetched afresh at every point, the result's
  buffer is never read, and the claim is only that the run ends with the four arguments as they were.
-/
import proofs.«178564_j66675072303610_1_alg».proof.Proof.BodyBits
import Idealize.ShloMosaic.Lib.Pipeline.FrameSuffix

set_option maxRecDepth 16384

noncomputable section

namespace Cert.Kernel.Run

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data of the one pipeline on core `c`: the arrays as the region finds them, nothing said of
    what the body leaves in a staging buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body obligation: whatever the three buffers hold, the body runs and hands them back. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2))
      ⊢ wp frame (wpE (defs₀ (F := F)) Variants.none c none) Set.univ (bodyAt0 t) (fun _ =>
          iprop((rdat m c).Φ t.succ ∗ (rdat m c).owesAt () t.succ
            ∗ (∃ X, ⌜(rdat m c).after 0 t (Y 0) X⌝ ∗ owns (c : Thread nD τ) (st0_0 t) fullShare X)
            ∗ (∃ X, ⌜(rdat m c).after 1 t (Y 1) X⌝ ∗ owns (c : Thread nD τ) (st0_1 t) fullShare X)
            ∗ (∃ X, ⌜(rdat m c).after 2 t (Y 2) X⌝ ∗ owns (c : Thread nD τ) (st0_2 t) fullShare X))) := by
  unfold bodyAt0
  rw [show (rdat m c).Φ t.succ = (rdat m c).Φ t.castSucc from rfl,
    show (rdat m c).owesAt () t.succ = (rdat m c).owesAt () t.castSucc from rfl]
  iintro ⟨HΦ, Ho, H0, H1, H2⟩
  iapply (sound_kernel (F := F) c Set.univ (grid0.coords t) _ _ _ _ _ _ (Y 0) (Y 1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]
  · iexists (Y 0); isplitr; · ipureintro; trivial
    iexact H0
  isplitl [H1]
  · iexists (Y 1); isplitr; · ipureintro; trivial
    iexact H1
  · iexists (stored (Y 0) (Y 1)); isplitr; · ipureintro; trivial
    iexact H2

theorem body_obligation (c : Dev nD) : (rdat m c).BodyObligation (defs₀ (F := F)) Variants.none () Set.univ := fun t Y _ => by
  rw [bigSep_W0, bigSep_W0]
  exact sound_body m c t Y

/-! ## The run and the frame -/

/-- The buffers the host lines after the region may write: every one but the two integer arguments. -/
def written : Finset (Ref sig .tc) := Finset.univ.filter fun b => b ≠ main_arg2 ∧ b ≠ main_arg3

/-- Each of those lines writes its own result buffer, which is neither. -/
theorem tail_writes : ∀ ops ∈ ([hostOps1, hostOps1_1, hostOps1_2] : List (List (HloOp τ sig (Elt F)))), ∀ op ∈ ops,
    ∀ b : Ref sig .tc, Proc.devRef .tc b ∈ op.writes → b ∈ written := by
  intro ops hops op hop b hb
  simp only [List.mem_cons, List.mem_nil_iff, or_false] at hops
  rcases hops with rfl | rfl | rfl
  · simp only [hostOps1, List.mem_cons, List.mem_nil_iff, or_false] at hop
    rcases hop with rfl | rfl | rfl | rfl | rfl | rfl | rfl | rfl | rfl | rfl | rfl
    all_goals
      simp only [StableHlo.nullary_writes, StableHlo.unary_writes, StableHlo.binary_writes, StableHlo.ternary_writes, Finset.mem_singleton] at hb
      obtain rfl := Proc.devRef_injective (τ := τ) _ hb
      exact Finset.mem_filter.mpr ⟨Finset.mem_univ _, by decide, by decide⟩
  · simp only [hostOps1_1, List.mem_cons, List.mem_nil_iff, or_false] at hop
    rcases hop with rfl | rfl | rfl
    all_goals
      simp only [StableHlo.nullary_writes, StableHlo.unary_writes, StableHlo.binary_writes, StableHlo.ternary_writes, Finset.mem_singleton] at hb
      obtain rfl := Proc.devRef_injective (τ := τ) _ hb
      exact Finset.mem_filter.mpr ⟨Finset.mem_univ _, by decide, by decide⟩
  · simp only [hostOps1_2, List.mem_cons, List.mem_nil_iff, or_false] at hop
    rcases hop with rfl | rfl | rfl | rfl | rfl | rfl | rfl | rfl | rfl | rfl | rfl | rfl | rfl
    all_goals
      simp only [StableHlo.nullary_writes, StableHlo.unary_writes, StableHlo.binary_writes, StableHlo.ternary_writes, Finset.mem_singleton] at hb
      obtain rfl := Proc.devRef_injective (τ := τ) _ hb
      exact Finset.mem_filter.mpr ⟨Finset.mem_univ _, by decide, by decide⟩

set_option backward.isDefEq.respectTransparency.types false in
/-- Every weakly fair execution of @main terminates; the input arrays end as the region found them, and so does every
    unscoped buffer the later host lines do not write. -/
theorem run_main : θ_run defs (onTc (τ := τ) (main (F := F))) (s₀ m ρ)
    (RDat.FramePostR cfg0 (rdat m) written (fun c b => V0 m c (Proc.devRef .tc b))) :=
  RDat.θ_run_frame_around_T cfgs (0 : Fin 1) launch0 defs₀ Variants.none (rdat m) written m ρ main
    (hbody := body_obligation m) (hshare := fun c w => by unfold RDat.share; split <;> rfl) (howed := fun _ _ => rfl)
    (V₀ := V0 m) (opss := [hostOps1, hostOps1_1, hostOps1_2]) (hsub := sfx_sub) (hfresh := sfx_fresh) (hkeep := sfx_keeps)
    (hT := tail_writes) (hmain := hmain m Variants.none) (hA := fun _ _ => rfl) (hΦ := fun _ _ => rfl)

/-- The frame claim: the four arguments end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => by
    have hin0 := (h c).1 0
    have hin1 := (h c).1 1
    rw [(rdat m c).ArrAt_in 0 rfl] at hin0
    rw [(rdat m c).ArrAt_in 1 rfl] at hin1
    refine ⟨hin0.trans (V_main_arg0 m c), hin1.trans (V_main_arg1 m c), ?_, ?_⟩
    · exact ((h c).2 main_arg2 (Finset.mem_sdiff.mpr ⟨Pipeline.mem_restRefs_of main_arg2 (by decide) (by decide),
        fun hw => (Finset.mem_filter.mp hw).2.1 rfl⟩)).trans (V_main_arg2 m c)
    · exact ((h c).2 main_arg3 (Finset.mem_sdiff.mpr ⟨Pipeline.mem_restRefs_of main_arg3 (by decide) (by decide),
        fun hw => (Finset.mem_filter.mp hw).2.2 rfl⟩)).trans (V_main_arg3 m c)) (run_main m ρ)

end Cert.Kernel.Run

end
-- ==== Proof.BodyIdeal.lean ====
/-
  The kernel body of the idealized program, run once on whole staging buffers.

  The body loads the two 8192×64 input blocks whole, computes one number per row — the cosine of the two rows,
  shifted and halved: ((Σ_k h_k/max(‖h‖,ε) · t_k/max(‖t‖,ε)) + 1)/2 — and stores the 8192 numbers over the whole
  output block.  So after the body the output buffer reads as the row function of what the two input buffers read,
  whatever it held before, and the input buffers are as they were.  Stated for every float instance.
-/
import proofs.«178564_j66675072303610_1_alg».proof.Proof.Gen.KernelIdeal.Frame
import proofs.«178564_j66675072303610_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole 8192×64 block, as the rectangle both loads go through. -/
abbrev rowsRect : Rect S8192x64 := Rect.unit (s := S8192x64) ![0, 0] S8192x64.size inb_S8192x64_S8192x64_0_0
/-- The whole block of 8192 results, as the rectangle the store goes through. -/
abbrev outRect : Rect S8192 := Rect.unit (s := S8192) ![0] S8192.size inb_S8192_S8192_0

/-- What the output buffer reads after the body, from what the two input buffers read: the one store's payload laid
    over the whole block. -/
def stored (x0 x1 : Vec F S8192x64 .f32) : Vec F S8192 .f32 :=
  View.canon [⟨outRect, k0_pay1 (View.ld x0 rowsRect) (View.ld x1 rowsRect)⟩]

/-- The one store covers the output block. -/
theorem store_covers (p0 : Vec F S8192 .f32) (y : S8192.Idx) :
    ∃ pc ∈ ([⟨outRect, p0⟩] : List (View.Piece (Elt F) S8192 .f32)), y ∈ pc.1.set :=
  View.cover_of_tiled [⟨outRect, p0⟩] S8192.size (by rfl) y

set_option maxHeartbeats 1000000 in
/-- The body on whole memrefs: inputs reading `x0`, `x1`, the output anything; it returns with the inputs as they were
    and the output reading `stored x0 x1`. -/
theorem sound_kernel (c : Dev nD) (E : Set ℕ) (i : grid0.Coords) (arg1 : Memref sig .tc .vmem S8192x64 .f32) (harg1 : arg1.IsWhole)
    (arg2 : Memref sig .tc .vmem S8192x64 .f32) (harg2 : arg2.IsWhole) (arg3 : Memref sig .tc .vmem S8192 .f32) (harg3 : arg3.IsWhole)
    (x0 : Vec F S8192x64 .f32) (x1 : Vec F S8192x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (stored x0 x1)) -∗ K ⟨⟩))
      ⊢ wp frame (wpE (defs₀ (F := F)) Variants.none c none) E (cc0__edge_alpha_kernel i arg1 harg1 arg2 harg2 arg3 harg3) K := by
  simp only [cc0__edge_alpha_kernel_eq_skeleton]; unfold cc0__edge_alpha_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (store_covers _)

/-- Both rectangles start at the origin. -/
theorem origin2 : (![0, 0] : Fin 2 → Nat) = fun _ => 0 := funext fun a => by fin_cases a <;> rfl
theorem origin1 : (![0] : Fin 1 → Nat) = fun _ => 0 := funext fun a => by fin_cases a; rfl

/-- Since every access is of a whole block, what is stored is the payload of the two blocks themselves. -/
theorem stored_eq (x0 x1 : Vec F S8192x64 .f32) : stored x0 x1 = k0_pay1 x0 x1 := by
  unfold stored
  rw [View.canon_unit_zero origin1]
  simp only [View.ld_unit_zero (S := S8192x64) origin2]

end Cert.KernelIdeal.Body

end
-- ==== Proof.LibKeepdims.lean ====
/-
  A reduction that keeps its reduced axis as a unit axis (`keepdims=True`) leaves a COLUMN `[a, 1]`; the
  layout operations that make it, turn it into a row, or spread it over columns, each read at an index
  written by its coordinates:
  • a vector `[a]` cast to the column `[a, 1]` reads, at `(i, u)`, the vector at `i`;
  • a column `[a, 1]` cast to the row `[1, a]` reads, at `(u, i)`, the column at `(i, u')`;
  • a column `[a, 1]` broadcast to `[a, b]` reads, at `(p, c)`, the column at `(p, u)`.
  In each the unit coordinate (`u`, `u'` of type `Fin 1`) is whatever the caller writes: there is only one.
  Also a sum over the LAST axis of a matrix, read at a row, as the `Fin`-indexed sum over that row's entries.
-/
import Idealize.ShloMosaic.Lib.ValueLayout
import Idealize.ShloMosaic.PureOps.Ideal.Laws

namespace Cert.LibKeepdims

open Idealize.ShloMosaic Idealize.ShloMosaic.ValueIdx

variable {α : Type}

/-- A vector `[a]` cast to the column `[a, 1]` reads, at `(i, u)`, the vector at `i`: both indices sit at
    row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` cast to the row `[1, a]` reads, at `(u, i)`, the column at `(i, u')`: both indices sit
    at row-major position `i`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) (u' : Fin 1) : shapeCast ⟨2, ![1, a]⟩ x h (ix2 u i) = x (ix2 i u') :=
  shapeCast_apply x h _ _ (by
    have hu : u.val = 0 := by omega
    have hu' : u'.val = 0 := by omega
    rw [Shape.rowMajor_val_two, Shape.rowMajor_val_two]
    show i.val * 1 + u'.val = u.val * a + i.val
    rw [hu, hu', Nat.zero_mul, Nat.zero_add, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) (u : Fin 1) : broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-- At the ideal values a float `vector.multi_reduction <add>` over the LAST axis of an `[a, b]` matrix, read at row
    `p`, is the sum of that row's `b` entries. -/
theorem multiReduction_add_lastAxis_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext ax; apply Fin.ext
  match ax with
  | ⟨0, _⟩ => rfl
  | ⟨1, _⟩ => rfl

end Cert.LibKeepdims
-- ==== Proof.RowIdeal.lean ====
/-
  One row of the kernel's arithmetic, on the extended reals.

  For rows h, t of 64 entries the kernel's number is
      rowCos h t = ((Σ_k  h_k / max(√(Σ_j h_j²), ε) · t_k / max(√(Σ_j t_j²), ε)) + 1) · ½ ,
  ε, 1 and ½ the values of the three literals.  The body's payload, read at row r of a block, is rowCos of row r of
  the two input blocks: every operation of the body is entrywise, a sum along a row, or a copy of a row's number
  along that row, so no other row enters.
-/
import proofs.«178564_j66675072303610_1_alg».proof.Proof.Gen.KernelIdeal.Skeleton
import proofs.«178564_j66675072303610_1_alg».proof.Proof.LibKeepdims
import Idealize.ShloMosaic.Lib.ValueIdx
import Idealize.ShloMosaic.PureOps.Ideal.Laws

noncomputable section

namespace Cert.RowCos

open Idealize.ShloMosaic Idealize.ShloMosaic.ValueIdx

/-- The shifted, halved cosine of two rows of 64 extended reals. -/
def rowCos (h t : Fin 64 → EReal) : EReal :=
  ((∑ k : Fin 64, Ideal.div (h k) (max (Ideal.sqrt (∑ j : Fin 64, h j * h j)) (Ideal.ofBits .f32 0x2B8CBCCC#32))
        * Ideal.div (t k) (max (Ideal.sqrt (∑ j : Fin 64, t j * t j)) (Ideal.ofBits .f32 0x2B8CBCCC#32)))
      + Ideal.ofBits .f32 0x3F800000#32) * Ideal.ofBits .f32 0x3F000000#32

/-- The kernel's result, as one function of the two whole input arrays: entry `e` is `rowCos` of row `e` of each. -/
def edgeAlpha (a0 a1 : (⟨2, ![3200000, 64]⟩ : Shape).Idx → EReal) : (⟨1, ![3200000]⟩ : Shape).Idx → EReal :=
  fun i => rowCos (fun k => a0 (ix2 ⟨(i 0).val, (i 0).isLt⟩ k)) (fun k => a1 (ix2 ⟨(i 0).val, (i 0).isLt⟩ k))

end Cert.RowCos

namespace Cert.KernelIdeal.Row

open Cert.KernelIdeal Cert.KernelIdeal.Gen Cert.RowCos Cert.LibKeepdims
open Idealize.ShloMosaic Idealize.ShloMosaic.ValueIdx

/-- A sum along a row of an 8192×64 block, as the kernel spells it (the accumulator's proof typed as printed). -/
theorem rowSum (src : FVec Ideal S8192x64 .f32) (hφ : FKind.Formats .f32) (hacc : (0x00000000#32 : BitVec 32) = 0x00000000#32)
    (r : Fin 8192) :
    multiReduction .add [1] S8192 src 0x00000000#32 reduces_S8192x64_S8192 hφ hacc (ix1 r) = ∑ k : Fin 64, src (ix2 r k) :=
  multiReduction_add_lastAxis_apply src _ _ hφ hacc r

/-- The body's payload at row `r` is `rowCos` of row `r` of the two blocks. -/
theorem pay_row (v0 v1 : Vec Ideal S8192x64 .f32) (r : Fin 8192) :
    k0_pay1 (F := Ideal) v0 v1 (ix1 r) = rowCos (fun k => v0 (ix2 r k)) (fun k => v1 (ix2 r k)) := by
  unfold k0_pay1 rowCos
  dsimp only
  have sqrt_at : ∀ (x : FVec Ideal S8192x1 .f32) (i : S8192x1.Idx), sqrt x i = Ideal.sqrt (x i) := fun _ _ => rfl
  rw [mulf_apply, addf_apply, broadcast_apply, broadcast_apply, rowSum]
  refine congrArg (· * _) (congrArg (· + _) (Finset.sum_congr rfl fun k _ => ?_))
  rw [mulf_apply, divf_apply, divf_apply,
    broadcastTo_a1_ab_apply _ _ r k (0 : Fin 1), broadcastTo_a1_ab_apply _ _ r k (0 : Fin 1),
    maximumf_apply, maximumf_apply, broadcast_apply, sqrt_at, sqrt_at,
    shapeCast_a_a1_apply, shapeCast_a_a1_apply,
    rowSum, rowSum]
  rfl

end Cert.KernelIdeal.Row

end
-- ==== Proof.RunIdeal.lean ====
/-
  The idealized kernel's run, point by point.

  The grid has 391 points; point t handles rows 8192·t … of the two inputs and of the result.  3 200 000 is not a
  multiple of 8192, so the last point's blocks hang 3072 rows past the arrays' end: its fetches fill only the first
  5120 rows of the staging buffers (the rest hold words nothing names) and its write-back writes only the first 5120
  results.  Because the body's number for a row depends on that row alone (`pay_row`), the rows that are written
  back do not depend on the unnamed words.  So the proof data name, per point, the input blocks filled out with zero
  and the body's payload of those, and state every staging buffer on the rows inside the array only.
-/
import proofs.«178564_j66675072303610_1_alg».proof.Proof.BodyIdeal
import proofs.«178564_j66675072303610_1_alg».proof.Proof.RowIdeal
import Idealize.ShloMosaic.Lib.Pipeline.FrameSuffix
import Idealize.ShloMosaic.Lib.Pipeline.Value

set_option maxRecDepth 16384

noncomputable section

namespace Cert.KernelIdeal.Run

open Cert.KernelIdeal Cert.KernelIdeal.Gen Cert.KernelIdeal.Body Cert.KernelIdeal.Row Cert.RowCos
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The proof data -/

/-- Point `t`'s block of the first input, filled out with zero past the array's end; -/
def head8 (c : Dev nD) (t : Fin cfg0.N) : S8192x64.Idx → Elt Ideal .f32 :=
  win0_0.fill (grid0.coords t) (fun _ => Scalar.ofBits (F := Ideal) .f32 0#32) (iblk m c 0 t)
/-- the second input's; -/
def tail8 (c : Dev nD) (t : Fin cfg0.N) : S8192x64.Idx → Elt Ideal .f32 :=
  win0_1.fill (grid0.coords t) (fun _ => Scalar.ofBits (F := Ideal) .f32 0#32) (iblk m c 1 t)
/-- and the body's 8192 numbers for them. -/
def alpha8 (c : Dev nD) (t : Fin cfg0.N) : S8192.Idx → Elt Ideal .f32 :=
  k0_pay1 (F := Ideal) (head8 m c t) (tail8 m c t)

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => head8 m c t
    | ⟨1, _⟩ => tail8 m c t
    | ⟨2, _⟩ => alpha8 m c t
  Φ _ := Pipeline.ΦA spec0 c
  q _ := fullShare
  owed _ := 0

theorem A_eq (c : Dev nD) (w : Fin cfg0.W) : (dats m 0 c).A w = V m c (Pipeline.arrRef spec0 w) := by
  dsimp only [dats]

/-- The result's window is never fetched. -/
theorem fetch0_2 : ∀ t : Fin cfg0.N, (cfg0.win 2).fetch t = false :=
  (by decide +kernel : ∀ t : Fin grid0.N, win0_2.fetch t = false)

/-- What the body finds: each input's buffer just fetched — the block on the rows inside the array, `d` elsewhere —, -/
theorem before_0 (c : Dev nD) (t : Fin cfg0.N) (d) :
    (dats m 0 c).before (0 : Fin 3) t d = win0_0.fill (grid0.coords t) d (iblk m c 0 t) := by
  unfold Dat.before; rw [if_pos (fetch0_0 t)]; rfl
theorem before_1 (c : Dev nD) (t : Fin cfg0.N) (d) :
    (dats m 0 c).before (1 : Fin 3) t d = win0_1.fill (grid0.coords t) d (iblk m c 1 t) := by
  unfold Dat.before; rw [if_pos (fetch0_1 t)]; rfl
/-- the result's buffer at contents nothing names. -/
theorem before_2 (c : Dev nD) (t : Fin cfg0.N) (d) : (dats m 0 c).before (2 : Fin 3) t d = d := by
  unfold Dat.before
  rw [if_neg (by rw [fetch0_2 t]; exact Bool.false_ne_true)]
  by_cases h0 : t.val = 0
  · rw [if_pos h0]
  · rw [if_neg h0]; exact if_pos (flush0_2 _)

/-! ## The rows inside the array -/

/-- The printed index maps and cuts, decided over the grid: block `t` starts at row `8192·t` and spans all 64
    columns; the three windows are cut alike on the row axis — 8192 rows, 5120 at the last point. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 1) = t.val
    ∧ win0_0.xsize (grid0.coords t) (1 : Fin 2) = 64 ∧ win0_1.xsize (grid0.coords t) (1 : Fin 2) = 64
    ∧ win0_0.xsize (grid0.coords t) (0 : Fin 2) = win0_2.xsize (grid0.coords t) (0 : Fin 1)
    ∧ win0_1.xsize (grid0.coords t) (0 : Fin 2) = win0_2.xsize (grid0.coords t) (0 : Fin 1)
    ∧ t.val * 8192 + win0_2.xsize (grid0.coords t) (0 : Fin 1) ≤ 3200000
    ∧ (t.val + 1 < 391 → win0_2.xsize (grid0.coords t) (0 : Fin 1) = 8192)
    ∧ (t.val + 1 = 391 → win0_2.xsize (grid0.coords t) (0 : Fin 1) = 5120) :=
  (by decide +kernel : ∀ t : Fin grid0.N, _)

/-- A row that the result's write-back moves is moved, whole, by the first input's fetch, -/
theorem moved_0 (t : Fin cfg0.N) (r : Fin 8192) (k : Fin 64) (hr : r.val < win0_2.xsize (grid0.coords t) (0 : Fin 1)) :
    win0_0.moved (grid0.coords t) (ix2 r k) = true := by
  obtain ⟨-, -, -, -, -, e5, -, e7, -⟩ := grid_facts t
  refine (win0_0.moved_iff _ _).mpr fun a => ?_
  match a with
  | ⟨0, _⟩ => show r.val < win0_0.xsize (grid0.coords t) (0 : Fin 2); rw [e7]; exact hr
  | ⟨1, _⟩ => show k.val < win0_0.xsize (grid0.coords t) (1 : Fin 2); rw [e5]; exact k.isLt
/-- and by the second's. -/
theorem moved_1 (t : Fin cfg0.N) (r : Fin 8192) (k : Fin 64) (hr : r.val < win0_2.xsize (grid0.coords t) (0 : Fin 1)) :
    win0_1.moved (grid0.coords t) (ix2 r k) = true := by
  obtain ⟨-, -, -, -, -, -, e6, -, e8, -⟩ := grid_facts t
  refine (win0_1.moved_iff _ _).mpr fun a => ?_
  match a with
  | ⟨0, _⟩ => show r.val < win0_1.xsize (grid0.coords t) (0 : Fin 2); rw [e8]; exact hr
  | ⟨1, _⟩ => show k.val < win0_1.xsize (grid0.coords t) (1 : Fin 2); rw [e6]; exact k.isLt

/-- So such a row of a fetched buffer does not depend on what the buffer held before. -/
theorem fill_row_0 (t : Fin cfg0.N) (d d' : S8192x64.Idx → Elt Ideal .f32) (x) (r : Fin 8192) (k : Fin 64)
    (hr : r.val < win0_2.xsize (grid0.coords t) (0 : Fin 1)) :
    win0_0.fill (grid0.coords t) d x (ix2 r k) = win0_0.fill (grid0.coords t) d' x (ix2 r k) := by
  unfold Window.fill; rw [dif_pos (moved_0 t r k hr), dif_pos (moved_0 t r k hr)]
theorem fill_row_1 (t : Fin cfg0.N) (d d' : S8192x64.Idx → Elt Ideal .f32) (x) (r : Fin 8192) (k : Fin 64)
    (hr : r.val < win0_2.xsize (grid0.coords t) (0 : Fin 1)) :
    win0_1.fill (grid0.coords t) d x (ix2 r k) = win0_1.fill (grid0.coords t) d' x (ix2 r k) := by
  unfold Window.fill; rw [dif_pos (moved_1 t r k hr), dif_pos (moved_1 t r k hr)]

/-- The part of the body's payload that is written back, row by row. -/
theorem cut_pay (t : Fin cfg0.N) (X0 X1 : S8192x64.Idx → Elt Ideal .f32) (j : (win0_2.xblock (grid0.coords t)).Idx)
    (r : Fin 8192) (hr : r.val = (j 0).val) :
    win0_2.cut (grid0.coords t) (k0_pay1 (F := Ideal) X0 X1) j = rowCos (fun k => X0 (ix2 r k)) (fun k => X1 (ix2 r k)) := by
  have e : win0_2.xinj (grid0.coords t) j = ix1 r := by
    funext a; match a with | ⟨0, _⟩ => exact Fin.ext hr.symm
  show k0_pay1 (F := Ideal) X0 X1 (win0_2.xinj (grid0.coords t) j) = _
  rw [e, pay_row]

/-- It does not depend on what the input buffers held before their fetches. -/
theorem cut_pay_indep (t : Fin cfg0.N) (d0 d0' d1 d1' : S8192x64.Idx → Elt Ideal .f32) (x y) :
    win0_2.cut (grid0.coords t) (k0_pay1 (F := Ideal) (win0_0.fill (grid0.coords t) d0 x) (win0_1.fill (grid0.coords t) d1 y))
      = win0_2.cut (grid0.coords t) (k0_pay1 (F := Ideal) (win0_0.fill (grid0.coords t) d0' x) (win0_1.fill (grid0.coords t) d1' y)) := by
  funext j
  have hj : (j 0).val < win0_2.xsize (grid0.coords t) (0 : Fin 1) := (j 0).isLt
  have h8 : (j 0).val < 8192 := lt_of_lt_of_le hj (win0_2.xsize_le (grid0.coords t) 0)
  rw [cut_pay t _ _ j ⟨(j 0).val, h8⟩ rfl, cut_pay t _ _ j ⟨(j 0).val, h8⟩ rfl]
  congr 1
  · funext k; exact fill_row_0 t d0 d0' x ⟨(j 0).val, h8⟩ k hj
  · funext k; exact fill_row_1 t d1 d1' y ⟨(j 0).val, h8⟩ k hj

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: each buffer stated on the rows its window's transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_0 m c t d0, before_1 m c t d1, before_2 m c t d2]
  iapply (sound_kernel (F := Ideal) c Set.univ (grid0.coords t) _ _ _ _ _ _
    (win0_0.fill (grid0.coords t) d0 (iblk m c 0 t)) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  -- the inputs' buffers hold their blocks filled out with what they held; the result's the payload of those, whose
  -- written-back rows are those of the payload of the zero-filled blocks
  have h0 : win0_0.cut (grid0.coords t) ((dats m 0 c).after 0 t) = iblk m c 0 t := win0_0.cut_fill _ _ _
  have h1 : win0_1.cut (grid0.coords t) ((dats m 0 c).after 1 t) = iblk m c 1 t := win0_1.cut_fill _ _ _
  have h2 : win0_2.cut (grid0.coords t) ((dats m 0 c).after 2 t)
      = win0_2.cut (grid0.coords t) (k0_pay1 (F := Ideal) (win0_0.fill (grid0.coords t) d0 (iblk m c 0 t)) (win0_1.fill (grid0.coords t) d1 (iblk m c 1 t))) :=
    cut_pay_indep t _ d0 _ d1 (iblk m c 0 t) (iblk m c 1 t)
  isplitl [H0]
  · iexists d0; rw [h0]; iexact H0
  isplitl [H1]
  · iexists d1; rw [h1]; iexact H1
  · iexists (k0_pay1 (F := Ideal) (win0_0.fill (grid0.coords t) d0 (iblk m c 0 t)) (win0_1.fill (grid0.coords t) d1 (iblk m c 1 t)))
    rw [h2, win0_2.fill_cut, ← stored_eq]; iexact H2

/-- The library's body obligation, every window stated on the rows inside the array. -/
theorem body_obligation (c : Dev nD) : BodyObligationLoose (dats m 0 c) (defs₀ (F := Ideal)) Variants.none () Set.univ := fun t => by
  rw [bigSep_W0, bigSep_W0]
  exact sound_body m c t

/-! ## The run -/

set_option backward.isDefEq.respectTransparency.types false in
/-- Every weakly fair execution of @main terminates; the pipeline's arrays end at what the library computes from the
    proof data, every other unscoped buffer at what the host lines after the region make of them. -/
theorem run_main : θ_run defs (onTc (τ := τ) (main (F := Ideal))) (s₀ m ρ)
    (Pipeline.FramePost cfgs (dats m) 0 (Pipeline.afterTail₀ cfgs (dats m) 0 (V0 m) [hostOps1, hostOps1_1, hostOps1_2])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1, hostOps1_1, hostOps1_2])
    (hsub := sfx_sub) (hfresh := sfx_fresh) (hkeep := sfx_keeps)
    (hmain := hmain m Variants.none) (hA := A_eq m) (hΦ := fun _ _ => rfl)

/-- The frame claim of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-! ## The result array after the run -/

/-- A row, inside the array, of the first input's block at point `t` is row `8192·t + r` of the array; -/
theorem head8_row (c : Dev nD) (t : Fin cfg0.N) (r : Fin 8192) (k : Fin 64)
    (hr : r.val < win0_2.xsize (grid0.coords t) (0 : Fin 1)) (e : Fin 3200000) (he : e.val = t.val * 8192 + r.val) :
    head8 m c t (ix2 r k) = V m c main_arg0 (ix2 e k) := by
  unfold head8 Window.fill
  rw [dif_pos (moved_0 t r k hr)]
  obtain ⟨e0, e1, -⟩ := grid_facts t
  unfold iblk
  show V m c main_arg0 (((cfg0.win 0).blk t).view.emb _) = V m c main_arg0 (ix2 e k)
  refine congrArg _ (funext fun a => Fin.ext ?_)
  match a with
  | ⟨0, _⟩ => show win0_0.index t (0 : Fin 2) * 8192 + 1 * r.val = e.val; omega
  | ⟨1, _⟩ => show win0_0.index t (1 : Fin 2) * 64 + 1 * k.val = k.val; omega
/-- the second input's likewise. -/
theorem tail8_row (c : Dev nD) (t : Fin cfg0.N) (r : Fin 8192) (k : Fin 64)
    (hr : r.val < win0_2.xsize (grid0.coords t) (0 : Fin 1)) (e : Fin 3200000) (he : e.val = t.val * 8192 + r.val) :
    tail8 m c t (ix2 r k) = V m c main_arg1 (ix2 e k) := by
  unfold tail8 Window.fill
  rw [dif_pos (moved_1 t r k hr)]
  obtain ⟨-, -, e2, e3, -⟩ := grid_facts t
  unfold iblk
  show V m c main_arg1 (((cfg0.win 1).blk t).view.emb _) = V m c main_arg1 (ix2 e k)
  refine congrArg _ (funext fun a => Fin.ext ?_)
  match a with
  | ⟨0, _⟩ => show win0_1.index t (0 : Fin 2) * 8192 + 1 * r.val = e.val; omega
  | ⟨1, _⟩ => show win0_1.index t (1 : Fin 2) * 64 + 1 * k.val = k.val; omega

/-- WHAT POINT `t` WRITES BACK is its block of `edgeAlpha` of the two input arrays. -/
theorem flushed_eq (c : Dev nD) (t : Fin cfg0.N) :
    (dats m 0 c).flushed 2 t = ((cfg0.win 2).blk t).view.read (Elt Ideal) (edgeAlpha (V m c main_arg0) (V m c main_arg1)) := by
  show win0_2.cut (grid0.coords t) (alpha8 m c t) = _
  funext j
  have hj : (j 0).val < win0_2.xsize (grid0.coords t) (0 : Fin 1) := (j 0).isLt
  have h8 : (j 0).val < 8192 := lt_of_lt_of_le hj (win0_2.xsize_le (grid0.coords t) 0)
  obtain ⟨-, -, -, -, e4, -⟩ := grid_facts t
  unfold alpha8
  rw [cut_pay t _ _ j ⟨(j 0).val, h8⟩ rfl]
  show _ = edgeAlpha (V m c main_arg0) (V m c main_arg1) (((cfg0.win 2).blk t).view.emb j)
  unfold edgeAlpha
  have hi : ((((cfg0.win 2).blk t).view.emb j) 0).val = t.val * 8192 + (j 0).val := by
    show win0_2.index t (0 : Fin 1) * 8192 + 1 * (j 0).val = _; omega
  congr 1
  · funext k; exact head8_row m c t ⟨(j 0).val, h8⟩ k hj ⟨_, _⟩ hi
  · funext k; exact tail8_row m c t ⟨(j 0).val, h8⟩ k hj ⟨_, _⟩ hi

/-- An entry of the result array is in point `t`'s block iff it is among the rows that block has inside the array. -/
theorem mem_blk (t : Fin cfg0.N) (i : S3200000.Idx) :
    i ∈ ((cfg0.win 2).blk t).view.set ↔ ∀ a : Fin 1, win0_2.index t a * S8192.size a ≤ (i a).val
      ∧ (i a).val < win0_2.index t a * S8192.size a + win0_2.xsize (grid0.coords t) a := by
  show i ∈ ((View.whole main_v0).slice (win0_2.rect t)).set ↔ _
  rw [View.set_slice_whole, Rect.mem_set_unit]
  exact Iff.rfl

/-- Every entry is in the block of the point `e / 8192`: 390 full blocks and a last one of 5120 rows. -/
theorem covered (i : S3200000.Idx) : ∃ t : Fin cfg0.N, (cfg0.win 2).flush t = true ∧ i ∈ ((cfg0.win 2).blk t).view.set := by
  have hi : (i 0).val < 3200000 := (i 0).isLt
  obtain ⟨t, ht⟩ : ∃ t : Fin cfg0.N, t.val = (i 0).val / 8192 := ⟨⟨(i 0).val / 8192, by rw [show cfg0.N = 391 from N_0]; omega⟩, rfl⟩
  refine ⟨t, flush0_2 t, ?_⟩
  rw [mem_blk]
  obtain ⟨-, -, -, -, e4, -, -, -, -, -, e10, e11⟩ := grid_facts t
  intro a
  match a with
  | ⟨0, _⟩ =>
    show win0_2.index t (0 : Fin 1) * 8192 ≤ (i 0).val ∧ (i 0).val < win0_2.index t (0 : Fin 1) * 8192 + win0_2.xsize (grid0.coords t) (0 : Fin 1)
    by_cases h : t.val + 1 < 391
    · rw [e10 h]; omega
    · have hN : t.val < 391 := lt_of_lt_of_eq t.isLt (N_0 : cfg0.N = 391)
      rw [e11 (by omega)]; omega

/-- THE RESULT ARRAY after the run is `edgeAlpha` of the two input arrays. -/
theorem final (c : Dev nD) : (dats m 0 c).arrAt 2 cfg0.N = edgeAlpha (V m c main_arg0) (V m c main_arg1) :=
  (dats m 0 c).arrAt_eq_of_cover 2 _ (fun t _ => flushed_eq m c t) covered

end Cert.KernelIdeal.Run

end
-- ==== Proof.Weights.lean ====
/-
  The host lines after the kernel's region, as functions of the per-edge numbers and the index lists.

  After α (one number per edge) is known, both programs compute the same things from it:
  the degree of each node, deg[n] = Σ over the edges whose head is n of α[e] (a scatter-add into zeros);
  its guarded reciprocal, inv[n] = 1/deg[n] where deg[n] ≠ 0 and 0 elsewhere; the heads wrapped into range
  (a negative head has 100000 added); and the result α[e] · inv[head[e]].  The other result stacks the two index
  lists as the rows of a [2, E] array.  They are stated here once, over any α, so that the kernel's α and the
  reference's go through the SAME function and nothing of it is ever opened.
-/
import proofs.«178564_j66675072303610_1_alg».proof.Proof.Gen.KernelIdeal
import Idealize.ShloMosaic.PureOps.Ideal

noncomputable section

namespace Cert.KernelIdeal.Tail

open Cert.KernelIdeal Cert.KernelIdeal.Gen
open Idealize.ShloMosaic

/-- The two index lists as the rows of a [2, E] array. -/
def stacked (a2 a3 : (⟨S3200000, .i32⟩ : BufTy).Contents (Elt Ideal)) : (⟨S2x3200000, .i32⟩ : BufTy).Contents (Elt Ideal) :=
  concatenate S2x3200000 0 [⟨S1x3200000, broadcastInDim S1x3200000 ![1] bcast_S3200000_S1x3200000_1 a2⟩,
    ⟨S1x3200000, broadcastInDim S1x3200000 ![1] bcast_S3200000_S1x3200000_1 a3⟩] concatenates_S1x3200000_S1x3200000_S2x3200000_d0

/-- The degree of each node: the per-edge numbers added up by head. -/
def degree (alpha : (⟨S3200000, .f32⟩ : BufTy).Contents (Elt Ideal)) (a2 : (⟨S3200000, .i32⟩ : BufTy).Contents (Elt Ideal)) :
    (⟨S100000, .f32⟩ : BufTy).Contents (Elt Ideal) :=
  Host.scatterAdd scatter_S100000_S3200000x1_S3200000_n_0_0_1
    (broadcastInDim S100000 ![] bcast_S_S100000 (constant (F := Ideal) S_ .f32 0x00000000#32))
    (broadcastInDim S3200000x1 ![0] bcast_S3200000_S3200000x1_0 a2) alpha

/-- The guarded reciprocal of a degree vector. -/
def invDegree (deg : (⟨S100000, .f32⟩ : BufTy).Contents (Elt Ideal)) : (⟨S100000, .f32⟩ : BufTy).Contents (Elt Ideal) :=
  select (cmpf .une deg (broadcastInDim S100000 ![] bcast_S_S100000 (constant (F := Ideal) S_ .f32 0x00000000#32)))
    (Host.divf (broadcastInDim S100000 ![] bcast_S_S100000 (constant (F := Ideal) S_ .f32 0x3F800000#32)) deg)
    (broadcastInDim S100000 ![] bcast_S_S100000 (constant (F := Ideal) S_ .f32 0x00000000#32))

/-- The heads wrapped into range, as a column of indices. -/
def headsCol (a2 : (⟨S3200000, .i32⟩ : BufTy).Contents (Elt Ideal)) : (⟨S3200000x1, .i32⟩ : BufTy).Contents (Elt Ideal) :=
  broadcastInDim S3200000x1 ![0] bcast_S3200000_S3200000x1_0
    (select (cmpi .slt a2 (broadcastInDim S3200000 ![] bcast_S_S3200000 (constantI S_ 32 0#32)))
      (addi a2 (broadcastInDim S3200000 ![] bcast_S_S3200000 (constantI S_ 32 100000#32))) a2)

/-- Each edge's number times the guarded reciprocal of its head's degree. -/
def weights (alpha : (⟨S3200000, .f32⟩ : BufTy).Contents (Elt Ideal)) (a2 : (⟨S3200000, .i32⟩ : BufTy).Contents (Elt Ideal)) :
    (⟨S3200000, .f32⟩ : BufTy).Contents (Elt Ideal) :=
  mulf (F := Ideal) (s := S3200000) (φ := .f32) (Host.gather gather_S100000_S3200000x1_S3200000_n_0_n_n_0_1_1 (invDegree (degree alpha a2)) (headsCol a2)) alpha

end Cert.KernelIdeal.Tail

end
-- ==== Proof.Tail.lean ====
/-
  The idealized kernel's two results.

  After the region the kernel's result array holds `edgeAlpha` of the two embedding arrays (the run's `final`), the
  integer arguments are as launched, and the host lines that follow compute from these the stacked index lists and
  the weights — the functions of the `Weights` module.
-/
import proofs.«178564_j66675072303610_1_alg».proof.Proof.RunIdeal
import proofs.«178564_j66675072303610_1_alg».proof.Proof.Weights
import Idealize.ShloMosaic.Lib.StableHlo.Run

set_option maxRecDepth 16384

noncomputable section

namespace Cert.KernelIdeal.Tail

open Cert.KernelIdeal Cert.KernelIdeal.Gen Cert.KernelIdeal.Run Cert.RowCos
open Idealize.ShloMosaic Idealize.ShloMosaic.TcCoe Idealize.ShloMosaic.Tactic Idealize.ShloMosaic.StableHlo
open Idealize.SL Idealize.SL.Sem

/-! The later lines' operations, piece by piece, are the functions of the `Weights` module. (The lines of the called
    function `_where` move contents through typed references to literal buffers: along an equation between a type
    and itself, so nothing moves.) -/

theorem degree_lines (α : (⟨S3200000, .f32⟩ : BufTy).Contents (Elt Ideal)) (a2 : (⟨S3200000, .i32⟩ : BufTy).Contents (Elt Ideal)) :
    Host.scatterAdd scatter_S100000_S3200000x1_S3200000_n_0_0_1
        (broadcastInDim S100000 ![] bcast_S_S100000 (constant (F := Ideal) S_ FTy.f32 0#32))
        (broadcastInDim S3200000x1 ![0] bcast_S3200000_S3200000x1_0 a2) α = degree α a2 := rfl

theorem invDegree_lines (D : (⟨S100000, .f32⟩ : BufTy).Contents (Elt Ideal)) :
    (TRef.of (sig := sig) (T := ⟨S100000, .f32⟩) main_v8).toBuf (Val := Elt Ideal)
      (select ((TRef.of (sig := sig) (T := ⟨S100000, .i1⟩) main_v5).ofBuf (Val := Elt Ideal) (cmpf .une D (broadcastInDim S100000 ![] bcast_S_S100000 (constant (F := Ideal) S_ .f32 0#32))))
        ((TRef.of (sig := sig) (T := ⟨S100000, .f32⟩) main_v7).ofBuf (Val := Elt Ideal) (Host.divf (broadcastInDim S100000 ![] bcast_S_S100000 (constant (F := Ideal) S_ .f32 1065353216#32)) D))
        ((TRef.of (sig := sig) (T := ⟨S100000, .f32⟩) main_call0_v1).ofBuf (Val := Elt Ideal) ((TRef.of (sig := sig) (T := ⟨S100000, .f32⟩) main_call0_v1).toBuf (Val := Elt Ideal)
          (broadcastInDim S100000 ![] bcast_S_S100000 ((TRef.of (sig := sig) (T := ⟨S_, .f32⟩) main_call0_v0).ofBuf (Val := Elt Ideal) ((TRef.of (sig := sig) (T := ⟨S_, .f32⟩) main_call0_v0).toBuf (Val := Elt Ideal)
            (id ((TRef.of (sig := sig) (T := ⟨S_, .f32⟩) main_cst_2).ofBuf (Val := Elt Ideal) (constant (F := Ideal) S_ .f32 0#32)))))))))
      = invDegree D := rfl

theorem headsCol_lines (a2 : (⟨S3200000, .i32⟩ : BufTy).Contents (Elt Ideal)) :
    broadcastInDim S3200000x1 ![0] bcast_S3200000_S3200000x1_0
        (select (cmpi CmpIPredicate.slt a2 (broadcastInDim S3200000 ![] bcast_S_S3200000 (constantI S_ 32 0#32)))
          (addi a2 (broadcastInDim S3200000 ![] bcast_S_S3200000 (constantI S_ 32 100000#32))) a2) = headsCol a2 := rfl

variable (m : (ℓ : Loc nD τ sig) → Buf (Elt Ideal) ℓ)

/-- The integer arguments are no array of the pipeline: the later lines read them as launched. -/
theorem kept_arg2 (c : Dev nD) :
    Pipeline.withArrays (cfgs 0).spec c (V0 m c) (fun w => (dats m 0 c).arrAt w (cfgs 0).N) (Proc.devRef .tc main_arg2)
      = m ((c.tc : Thread nD τ).loc main_arg2) :=
  Pipeline.withArrays_of_ne _ c (V0 m c) _ main_arg2 (by exact (by decide : ∀ w, Pipeline.arrRef spec0 w ≠ main_arg2))
theorem kept_arg3 (c : Dev nD) :
    Pipeline.withArrays (cfgs 0).spec c (V0 m c) (fun w => (dats m 0 c).arrAt w (cfgs 0).N) (Proc.devRef .tc main_arg3)
      = m ((c.tc : Thread nD τ).loc main_arg3) :=
  Pipeline.withArrays_of_ne _ c (V0 m c) _ main_arg3 (by exact (by decide : ∀ w, Pipeline.arrRef spec0 w ≠ main_arg3))
/-- The kernel's result array is read at what the run left in it. -/
theorem read_alpha (c : Dev nD) :
    Pipeline.withArrays (cfgs 0).spec c (V0 m c) (fun w => (dats m 0 c).arrAt w (cfgs 0).N) (Proc.devRef .tc main_v0)
      = edgeAlpha (m ((c.tc : Thread nD τ).loc main_arg0)) (m ((c.tc : Thread nD τ).loc main_arg1)) :=
  (Pipeline.withArrays_arr spec0 launch0.win.arr_inj c (V0 m c) (fun w => (dats m 0 c).arrAt w (cfgs 0).N) 2).trans (final m c)

/-- The first result after the later lines: the stacked index lists. -/
theorem tail_v11 (c : Dev nD) :
    Pipeline.afterTail₀ cfgs (dats m) 0 (V0 m) [hostOps1, hostOps1_1, hostOps1_2] c main_v11
      = stacked (m ((c.tc : Thread nD τ).loc main_arg2)) (m ((c.tc : Thread nD τ).loc main_arg3)) := by
  unfold Pipeline.afterTail₀
  simp only [hostOps1, hostOps1_1, hostOps1_2, List.flatten_cons, List.flatten_nil, List.append_nil, List.cons_append, List.nil_append]
  after_results
  rw [kept_arg2, kept_arg3]
  rfl

set_option maxHeartbeats 4000000 in
/-- The later lines, run from any contents: the second result is the weights of what `main_v0` and `main_arg2` hold. -/
theorem weights_of_lines (W : Valuation τ sig (Elt Ideal)) :
    StableHlo.after (List.flatten [hostOps1, hostOps1_1, hostOps1_2]) W (Proc.devRef .tc main_v19)
      = weights (W (Proc.devRef .tc main_v0)) (W (Proc.devRef .tc main_arg2)) := by
  simp only [hostOps1, hostOps1_1, hostOps1_2, List.flatten_cons, List.flatten_nil, List.append_nil, List.cons_append, List.nil_append]
  after_results
  generalize W (Proc.devRef .tc main_v0) = α
  generalize W (Proc.devRef .tc main_arg2) = a2
  rw [degree_lines, invDegree_lines, headsCol_lines]
  rfl

/-- The second result: the weights of the kernel's per-edge numbers. -/
theorem tail_v19 (c : Dev nD) :
    Pipeline.afterTail₀ cfgs (dats m) 0 (V0 m) [hostOps1, hostOps1_1, hostOps1_2] c main_v19
      = weights (edgeAlpha (m ((c.tc : Thread nD τ).loc main_arg0)) (m ((c.tc : Thread nD τ).loc main_arg1)))
          (m ((c.tc : Thread nD τ).loc main_arg2)) := by
  unfold Pipeline.afterTail₀
  rw [weights_of_lines, kept_arg2, read_alpha]

/-- THE IDEALIZED KERNEL'S RUN, read: the two results at the stacked index lists and the weights of `edgeAlpha` of the two
    embedding arrays, the four arguments as they were. -/
theorem run (ρ : Dev nD → PrngReg) :
    θ_run defs (onTc (τ := τ) (main (F := Ideal))) ⟨m, fun _ => 0, ρ⟩ fun r => ∀ c : Dev nD,
      r.2.mem ((c.tc : Thread nD τ).loc main_v11) = stacked (m ((c.tc : Thread nD τ).loc main_arg2)) (m ((c.tc : Thread nD τ).loc main_arg3))
      ∧ r.2.mem ((c.tc : Thread nD τ).loc main_v19)
          = weights (edgeAlpha (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨
      ((h c).2 main_v11 (Pipeline.mem_restRefs_of main_v11 (by decide) (by decide))).trans (tail_v11 m c),
      ((h c).2 main_v19 (Pipeline.mem_restRefs_of main_v19 (by decide) (by decide))).trans (tail_v19 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Tail

end
-- ==== Proof.RefIdeal.lean ====
/-
  The reference's per-edge number is the kernel's.

  The reference normalizes each row of the two whole arrays by max(‖row‖, ε), multiplies entrywise, sums along the
  row, adds one and halves: at entry e that is `rowCos` of row e of each array — the same sums of the same 64 terms in
  the same order as the kernel's, so no law of arithmetic is needed beyond 0 + x = x for the sums' zero initial value.
-/
import proofs.«178564_j66675072303610_1_alg».proof.Proof.Gen.ReferenceIdeal.Read
import proofs.«178564_j66675072303610_1_alg».proof.Proof.RowIdeal

set_option maxRecDepth 16384

noncomputable section

namespace Cert.ReferenceIdeal.RefValue

open Cert.ReferenceIdeal Cert.ReferenceIdeal.Gen Cert.ReferenceIdeal.Read Cert.RowCos
open Idealize.ShloMosaic Idealize.ShloMosaic.ValueIdx

/-- The squared norm of row `e` of the first array; -/
theorem sumsq_x0 (x0 : (⟨S3200000x64, .f32⟩ : BufTy).Contents (Elt Ideal)) (e : Fin 3200000) :
    val_main_v1 (F := Ideal) x0 (ix1 e) = ∑ j : Fin 64, x0 (ix2 e j) * x0 (ix2 e j) := by
  rw [val_main_v1_apply]
  have hz : val_main_cst (F := Ideal) (Shape.Idx.first h_S_) = 0 := Ideal.ofBits_zero_f32
  rw [hz, zero_add]
  refine Finset.sum_congr rfl fun j _ => ?_
  rw [val_main_v0_apply, show idx_main_v1 (ix1 e) j = ix2 e j from
    funext fun a => Fin.ext (by match a with | ⟨0, _⟩ => rfl | ⟨1, _⟩ => rfl)]
  rfl
/-- its norm, bounded below by ε, kept as a column; -/
theorem norm_x0 (x0 : (⟨S3200000x64, .f32⟩ : BufTy).Contents (Elt Ideal)) (e : Fin 3200000) (u : Fin 1) :
    val_main_v5 (F := Ideal) x0 (ix2 e u)
      = max (Ideal.sqrt (∑ j : Fin 64, x0 (ix2 e j) * x0 (ix2 e j))) (Ideal.ofBits .f32 0x2B8CBCCC#32) := by
  rw [val_main_v5_apply, val_main_v3_apply, val_main_v2_apply, val_main_v4_apply, val_main_cst_0_apply,
    show idx_main_v2 (ix2 e u) = ix1 e from funext fun a => Fin.ext (by match a with | ⟨0, _⟩ => rfl),
    sumsq_x0]
  rfl
/-- and the normalized entry. -/
theorem unit_x0 (x0 : (⟨S3200000x64, .f32⟩ : BufTy).Contents (Elt Ideal)) (e : Fin 3200000) (k : Fin 64) :
    val_main_v7 (F := Ideal) x0 (ix2 e k)
      = Ideal.div (x0 (ix2 e k)) (max (Ideal.sqrt (∑ j : Fin 64, x0 (ix2 e j) * x0 (ix2 e j))) (Ideal.ofBits .f32 0x2B8CBCCC#32)) := by
  rw [val_main_v7_apply, val_main_v6_apply,
    show idx_main_v6 (ix2 e k) = ix2 e (0 : Fin 1) from funext fun a => Fin.ext (by match a with | ⟨0, _⟩ => rfl | ⟨1, _⟩ => rfl),
    norm_x0]
  rfl

/-- The squared norm of row `e` of the second array; -/
theorem sumsq_x1 (x1 : (⟨S3200000x64, .f32⟩ : BufTy).Contents (Elt Ideal)) (e : Fin 3200000) :
    val_main_v9 (F := Ideal) x1 (ix1 e) = ∑ j : Fin 64, x1 (ix2 e j) * x1 (ix2 e j) := by
  rw [val_main_v9_apply]
  have hz : val_main_cst_1 (F := Ideal) (Shape.Idx.first h_S_) = 0 := Ideal.ofBits_zero_f32
  rw [hz, zero_add]
  refine Finset.sum_congr rfl fun j _ => ?_
  rw [val_main_v8_apply, show idx_main_v9 (ix1 e) j = ix2 e j from
    funext fun a => Fin.ext (by match a with | ⟨0, _⟩ => rfl | ⟨1, _⟩ => rfl)]
  rfl
/-- its norm, bounded below by ε, kept as a column; -/
theorem norm_x1 (x1 : (⟨S3200000x64, .f32⟩ : BufTy).Contents (Elt Ideal)) (e : Fin 3200000) (u : Fin 1) :
    val_main_v13 (F := Ideal) x1 (ix2 e u)
      = max (Ideal.sqrt (∑ j : Fin 64, x1 (ix2 e j) * x1 (ix2 e j))) (Ideal.ofBits .f32 0x2B8CBCCC#32) := by
  rw [val_main_v13_apply, val_main_v11_apply, val_main_v10_apply, val_main_v12_apply, val_main_cst_2_apply,
    show idx_main_v10 (ix2 e u) = ix1 e from funext fun a => Fin.ext (by match a with | ⟨0, _⟩ => rfl),
    sumsq_x1]
  rfl
/-- and the normalized entry. -/
theorem unit_x1 (x1 : (⟨S3200000x64, .f32⟩ : BufTy).Contents (Elt Ideal)) (e : Fin 3200000) (k : Fin 64) :
    val_main_v15 (F := Ideal) x1 (ix2 e k)
      = Ideal.div (x1 (ix2 e k)) (max (Ideal.sqrt (∑ j : Fin 64, x1 (ix2 e j) * x1 (ix2 e j))) (Ideal.ofBits .f32 0x2B8CBCCC#32)) := by
  rw [val_main_v15_apply, val_main_v14_apply,
    show idx_main_v14 (ix2 e k) = ix2 e (0 : Fin 1) from funext fun a => Fin.ext (by match a with | ⟨0, _⟩ => rfl | ⟨1, _⟩ => rfl),
    norm_x1]
  rfl

/-- The reference's per-edge stage at entry `e` is `rowCos` of row `e` of its two float arguments. -/
theorem edge_alpha_at (x0 x1 : (⟨S3200000x64, .f32⟩ : BufTy).Contents (Elt Ideal)) (e : Fin 3200000) :
    val_main_v21 (F := Ideal) x0 x1 (ix1 e) = rowCos (fun k => x0 (ix2 e k)) (fun k => x1 (ix2 e k)) := by
  rw [val_main_v21_apply, val_main_v19_apply, val_main_v20_apply, val_main_v18_apply, val_main_cst_4_apply,
    val_main_cst_5_apply, val_main_v17_apply]
  have hz : val_main_cst_3 (F := Ideal) (Shape.Idx.first h_S_) = 0 := Ideal.ofBits_zero_f32
  rw [hz, zero_add, Ideal.mulf_def, Ideal.addf_def, Ideal.ofBits_def, Ideal.ofBits_def]
  have hterm : ∀ k : Fin 64, val_main_v16 (F := Ideal) x0 x1 (idx_main_v17 (ix1 e) k)
      = Ideal.div (x0 (ix2 e k)) (max (Ideal.sqrt (∑ j : Fin 64, x0 (ix2 e j) * x0 (ix2 e j))) (Ideal.ofBits .f32 0x2B8CBCCC#32))
        * Ideal.div (x1 (ix2 e k)) (max (Ideal.sqrt (∑ j : Fin 64, x1 (ix2 e j) * x1 (ix2 e j))) (Ideal.ofBits .f32 0x2B8CBCCC#32)) := fun k => by
    rw [val_main_v16_apply, show idx_main_v17 (ix1 e) k = ix2 e k from
      funext fun a => Fin.ext (by match a with | ⟨0, _⟩ => rfl | ⟨1, _⟩ => rfl), unit_x0, unit_x1, Ideal.mulf_def]
  simp only [hterm]
  rfl

/-- So the stage is `edgeAlpha` of the two arguments. -/
theorem edge_alpha_eq (x0 x1 : (⟨S3200000x64, .f32⟩ : BufTy).Contents (Elt Ideal)) :
    val_main_v21 (F := Ideal) x0 x1 = edgeAlpha x0 x1 := by
  funext i
  have h := edge_alpha_at x0 x1 ⟨(i 0).val, (i 0).isLt⟩
  have hi : (ix1 (⟨(i 0).val, (i 0).isLt⟩ : Fin 3200000) : S3200000.Idx) = i := by
    funext a; match a with | ⟨0, _⟩ => rfl
  rw [hi] at h
  exact h

end Cert.ReferenceIdeal.RefValue

end
-- ==== Proof.RefTail.lean ====
/-
  The reference's host lines after its per-edge stage are the same function of that stage and the index lists as the
  kernel's lines after its region: the two programs print the same operations over the same shapes.
-/
import proofs.«178564_j66675072303610_1_alg».proof.Proof.Gen.ReferenceIdeal.Read
import proofs.«178564_j66675072303610_1_alg».proof.Proof.Weights

set_option maxRecDepth 16384

noncomputable section

namespace Cert.ReferenceIdeal.RefTail

open Cert.ReferenceIdeal Cert.ReferenceIdeal.Gen Cert.ReferenceIdeal.Read
open Idealize.ShloMosaic

theorem degree_eq (x0 x1 : (⟨S3200000x64, .f32⟩ : BufTy).Contents (Elt Ideal)) (x2 : (⟨S3200000, .i32⟩ : BufTy).Contents (Elt Ideal)) :
    val_main_v24 (F := Ideal) x0 x1 x2 = Cert.KernelIdeal.Tail.degree (val_main_v21 (F := Ideal) x0 x1) x2 := rfl

theorem invDegree_eq (x0 x1 : (⟨S3200000x64, .f32⟩ : BufTy).Contents (Elt Ideal)) (x2 : (⟨S3200000, .i32⟩ : BufTy).Contents (Elt Ideal)) :
    val_main_v29 (F := Ideal) x0 x1 x2 = Cert.KernelIdeal.Tail.invDegree (val_main_v24 (F := Ideal) x0 x1 x2) := rfl

theorem headsCol_eq (x2 : (⟨S3200000, .i32⟩ : BufTy).Contents (Elt Ideal)) :
    val_main_v38 (F := Ideal) x2 = Cert.KernelIdeal.Tail.headsCol x2 := rfl

/-- The reference's second result is the weights of its per-edge stage. -/
theorem weights_eq (x0 x1 : (⟨S3200000x64, .f32⟩ : BufTy).Contents (Elt Ideal)) (x2 : (⟨S3200000, .i32⟩ : BufTy).Contents (Elt Ideal)) :
    val_main_v40 (F := Ideal) x0 x1 x2 = Cert.KernelIdeal.Tail.weights (val_main_v21 (F := Ideal) x0 x1) x2 := by
  unfold val_main_v40 val_main_v39 Cert.KernelIdeal.Tail.weights
  rw [invDegree_eq, degree_eq, headsCol_eq]
  rfl

/-- Its first result is the stacked index lists. -/
theorem stacked_eq (x2 x3 : (⟨S3200000, .i32⟩ : BufTy).Contents (Elt Ideal)) :
    val_main_v32 (F := Ideal) x2 x3 = Cert.KernelIdeal.Tail.stacked x2 x3 := rfl

end Cert.ReferenceIdeal.RefTail

end
-- ==== Proof.lean ====
/-
  A Pallas kernel computes, for 3 200 000 edges, the cosine of the head's and the tail's 64-entry embedding rows (each
  row divided by max(‖row‖, ε)), shifted and halved into [0, 1]; host lines then add these numbers up by head node,
  take the guarded reciprocal of each node's total, and scale every edge's number by its head's reciprocal; the second
  result stacks the two index lists.  The reference does the same with whole-array operations.

  On the extended reals the two are equal with no law of arithmetic beyond 0 + x = x: the kernel's number for an edge
  and the reference's are the same sums of the same 64 terms (`rowCos`), and the host lines after them are the same
  function (`weights`, `stacked`) of those numbers and the index lists.  Finiteness of the inputs is never used.

  The kernel walks the edges in 391 blocks of 8192; the last block hangs 3072 rows past the arrays' end, so its
  staging buffers hold unnamed words there.  The idealized program's run names the rows inside the arrays only, which
  suffices because a row's number depends on that row alone; the printed program's frame is proved from relational
  proof data that say nothing of the result's contents, since at bit patterns a row sum is an uninterpreted function
  of the whole block.
-/
import proofs.«178564_j66675072303610_1_alg».proof.Defs
import proofs.«178564_j66675072303610_1_alg».proof.Proof.Gen.Kernel
import proofs.«178564_j66675072303610_1_alg».proof.Proof.Gen.KernelIdeal
import proofs.«178564_j66675072303610_1_alg».proof.Proof.Gen.ReferenceIdeal
import proofs.«178564_j66675072303610_1_alg».proof.Proof.Gen.Pre_finite_inputs
import proofs.«178564_j66675072303610_1_alg».proof.Proof.Gen.ReferenceIdeal.Run
import proofs.«178564_j66675072303610_1_alg».proof.Proof.Gen.ReferenceIdeal.Read
import proofs.«178564_j66675072303610_1_alg».proof.Proof.RunBits
import proofs.«178564_j66675072303610_1_alg».proof.Proof.Tail
import proofs.«178564_j66675072303610_1_alg».proof.Proof.RefIdeal
import proofs.«178564_j66675072303610_1_alg».proof.Proof.RefTail
import Idealize.ShloMosaic.Adequacy
import Idealize.ShloMosaic.Init

noncomputable section

namespace Cert.Proof

open Idealize.ShloMosaic Idealize.ShloMosaic.TcCoe Idealize.SL.Sem Cert.RowCos

/-- The printed program runs and leaves its arguments as they were. -/
theorem frame_k : Cert.frame_Kernel := fun m ρ _ => Cert.Kernel.Run.frame (F := Bits) m ρ

/-- So does the idealized one. -/
theorem frame_ki : Cert.frame_KernelIdeal := fun m ρ _ => Cert.KernelIdeal.Run.frame m ρ

/-- And the reference: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories agreeing on the four arguments both idealized programs end with the stacked index lists and with
    the weights of `edgeAlpha` of the two embedding arrays. -/
theorem algebraic : Cert.algebraic_KernelIdeal_ReferenceIdeal := by
  intro m ρ m' ρ' _ hagree
  refine ⟨_, _, Cert.KernelIdeal.Tail.run m ρ, ?_⟩
  refine (θ_run Cert.ReferenceIdeal.defs _ _).mono (fun r h c => ?_) (Cert.ReferenceIdeal.Value.run (F := Ideal) m' ρ')
  obtain ⟨h32, h40, hrest⟩ := h c
  refine ⟨?_, ?_, hrest⟩
  · rw [h32, Cert.ReferenceIdeal.Read.val_main_v32_eq, Cert.ReferenceIdeal.RefTail.stacked_eq, (hagree c).2.2.1, (hagree c).2.2.2]
  · rw [h40, Cert.ReferenceIdeal.Read.val_main_v40_eq, Cert.ReferenceIdeal.RefTail.weights_eq,
      Cert.ReferenceIdeal.RefValue.edge_alpha_eq, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
